-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v37_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v37_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x128 .f32) (main_arg3 : FVec F S64x128 .f32) (main_arg4 : FVec F S128 .f32) (main_arg5 : FVec F S128x128 .f32) (main_arg6 : FVec F S128x128 .f32) (main_arg7 : FVec F S128 .f32) (main_arg8 : FVec F S128x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S5000x64 : Shape := ⟨2, ![5000, 64]⟩
abbrev S5000x128 : Shape := ⟨2, ![5000, 128]⟩
abbrev S1x128 : Shape := ⟨2, ![1, 128]⟩
abbrev S1600000x128 : Shape := ⟨2, ![1600000, 128]⟩
abbrev S5000x1 : Shape := ⟨2, ![5000, 1]⟩
abbrev S1x1 : Shape := ⟨2, ![1, 1]⟩

abbrev nBuf : Space → Nat
  | .hbm => 59
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x128, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S100000x1, .f32⟩
  | .hbm, ⟨58, _⟩ => ⟨S100000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S128x1, .f32⟩
  | .local _ .vmem, ⟨17, _⟩ => ⟨S1, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37_0 : Ref sig .tc := ⟨.hbm, 56, rfl⟩
abbrev main_v37_1 : Ref sig .tc := ⟨.hbm, 57, rfl⟩
abbrev main_v38 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S100000x1.size a
  hwx1_8 : ∀ i : grid1.Coords, EltTy.bits .f32 = 32 ∨ (Rect.block (s := S100000x1) S5000x1.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37_0) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v37_1) S5000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S100000x1, .f32⟩
  | .hbm, ⟨80, _⟩ => ⟨S1x1, .f32⟩
  | .hbm, ⟨81, _⟩ => ⟨S100000x1, .f32⟩
  | .hbm, ⟨82, _⟩ => ⟨S100000x1, .f32⟩
  | .hbm, ⟨83, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.RunAll.lean ====
/-
  The idealized kernel program's run with EVERY unscoped buffer named at its end.

  @main is five segments: host operations, the first dense layer's grid, host operations, the second dense
  layer's grid, one last reshape.  The buffer contents at the segment boundaries are a fold from the launch
  memory (`W0 … W5`): a host stretch applies its operations in order, a grid leaves each of its windows'
  arrays at what its write-backs add up to and every other buffer as it found it.  The run below says that
  every weakly fair execution terminates with every unscoped buffer at the last fold `W5`; the value of the
  three results is then a matter of reading `W5` back through the fold, with no further reference to execution.
-/
import proofs.«136946_j42150809043600_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped TensorCore buffer
    holding the last boundary's contents `W5`. -/
theorem run_all : θ_run defs (onTc (τ := τ) (main (F := F))) ⟨m, fun _ => 0, ρ⟩ (fun r => ∀ c : Dev nD, ∀ b : Ref sig .tc,
      ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.KernelIdeal.Whole

end
-- ==== Proof.Dense.lean ====
/-
  The three matrix products of the two dense layers, and each layer's block, read at an index over the
  extended reals.

  A layer's block is, row by row, mean · W_l + x · W_r + b (the first layer then takes the maximum with 0):
  entry (p, q) is the sum over k of mean(p, k) · W_l(k, q), plus the sum over k of x(p, k) · W_r(k, q), plus b(q).
  Rounding an operand to bf16 before a product is the identity on the extended reals, and a product
  accumulated into a zero block is the plain sum over the contracted axis.  The last product of the second
  layer multiplies that layer's own block by a one-column matrix and adds the one-entry bias.
-/
import proofs.«136946_j42150809043600_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Dense

open Idealize.ShloMosaic Idealize.ShloMosaic.TcCoe Idealize.ShloMosaic.ValueIdx
open Cert.KernelIdeal Cert.KernelIdeal.Gen

/-! ## A product into a zero block is the sum over the contracted axis -/

section Products

variable {φ₁ φ₂ : FTy}

theorem l64_0 (i : S5000x128.Idx) (q : (dot_S5000x64_S64x128_S5000x128_1_0_0_1_n_n).contr.Idx) :
    ((dot_S5000x64_S64x128_S5000x128_1_0_0_1_n_n).lhsIdx i q 0).val = (i 0).val := by
  unfold DotDims.lhsIdx
  rw [dif_neg (show ¬(0 : Fin S5000x64.rank) ∈ (dot_S5000x64_S64x128_S5000x128_1_0_0_1_n_n).lhsBatch by decide),
    dif_pos (show (0 : Fin S5000x64.rank) ∈ (dot_S5000x64_S64x128_S5000x128_1_0_0_1_n_n).lhsNonContracting by decide)]
  rfl
theorem r64_1 (i : S5000x128.Idx) (q : (dot_S5000x64_S64x128_S5000x128_1_0_0_1_n_n).contr.Idx) :
    ((dot_S5000x64_S64x128_S5000x128_1_0_0_1_n_n).rhsIdx i q 1).val = (i 1).val := by
  unfold DotDims.rhsIdx
  rw [dif_neg (show ¬(1 : Fin S64x128.rank) ∈ (dot_S5000x64_S64x128_S5000x128_1_0_0_1_n_n).rhsBatch by decide),
    dif_pos (show (1 : Fin S64x128.rank) ∈ (dot_S5000x64_S64x128_S5000x128_1_0_0_1_n_n).rhsNonContracting by decide)]
  rfl

/-- Rows of 64 against a 64 × 128 matrix, accumulated into zeros: entry (p, q) is the sum over k of l(p, k) · r(k, q). -/
theorem mm64 (l : FVec Ideal S5000x64 φ₁) (r : FVec Ideal S64x128 φ₂) (p : Fin 5000) (q : Fin 128) :
    matmul dot_S5000x64_S64x128_S5000x128_1_0_0_1_n_n none l r (constant S5000x128 .f32 0x00000000#32) (ix2 p q)
      = ∑ k : Fin 64, l (ix2 p k) * r (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : (dot_S5000x64_S64x128_S5000x128_1_0_0_1_n_n).lhsIdx (ix2 p q) ((contrEquiv1 dot_S5000x64_S64x128_S5000x128_1_0_0_1_n_n 64 rfl rfl).symm k) = ix2 p k :=
    funext fun a => Fin.ext (by
      match a with
      | ⟨0, _⟩ => exact l64_0 _ _
      | ⟨1, _⟩ => exact ((dot_S5000x64_S64x128_S5000x128_1_0_0_1_n_n).lhsIdx_val_of_single rfl _ _).trans hk)
  have er : (dot_S5000x64_S64x128_S5000x128_1_0_0_1_n_n).rhsIdx (ix2 p q) ((contrEquiv1 dot_S5000x64_S64x128_S5000x128_1_0_0_1_n_n 64 rfl rfl).symm k) = ix2 k q :=
    funext fun a => Fin.ext (by
      match a with
      | ⟨0, _⟩ => exact ((dot_S5000x64_S64x128_S5000x128_1_0_0_1_n_n).rhsIdx_val_of_single rfl _ _).trans hk
      | ⟨1, _⟩ => exact r64_1 _ _)
  rw [el, er]

theorem l128_0 (i : S5000x128.Idx) (q : (dot_S5000x128_S128x128_S5000x128_1_0_0_1_n_n).contr.Idx) :
    ((dot_S5000x128_S128x128_S5000x128_1_0_0_1_n_n).lhsIdx i q 0).val = (i 0).val := by
  unfold DotDims.lhsIdx
  rw [dif_neg (show ¬(0 : Fin S5000x128.rank) ∈ (dot_S5000x128_S128x128_S5000x128_1_0_0_1_n_n).lhsBatch by decide),
    dif_pos (show (0 : Fin S5000x128.rank) ∈ (dot_S5000x128_S128x128_S5000x128_1_0_0_1_n_n).lhsNonContracting by decide)]
  rfl
theorem r128_1 (i : S5000x128.Idx) (q : (dot_S5000x128_S128x128_S5000x128_1_0_0_1_n_n).contr.Idx) :
    ((dot_S5000x128_S128x128_S5000x128_1_0_0_1_n_n).rhsIdx i q 1).val = (i 1).val := by
  unfold DotDims.rhsIdx
  rw [dif_neg (show ¬(1 : Fin S128x128.rank) ∈ (dot_S5000x128_S128x128_S5000x128_1_0_0_1_n_n).rhsBatch by decide),
    dif_pos (show (1 : Fin S128x128.rank) ∈ (dot_S5000x128_S128x128_S5000x128_1_0_0_1_n_n).rhsNonContracting by decide)]
  rfl

/-- Rows of 128 against a 128 × 128 matrix, accumulated into zeros: entry (p, q) is the sum over k of l(p, k) · r(k, q). -/
theorem mm128 (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : (dot_S5000x128_S128x128_S5000x128_1_0_0_1_n_n).lhsIdx (ix2 p q) ((contrEquiv1 dot_S5000x128_S128x128_S5000x128_1_0_0_1_n_n 128 rfl rfl).symm k) = ix2 p k :=
    funext fun a => Fin.ext (by
      match a with
      | ⟨0, _⟩ => exact l128_0 _ _
      | ⟨1, _⟩ => exact ((dot_S5000x128_S128x128_S5000x128_1_0_0_1_n_n).lhsIdx_val_of_single rfl _ _).trans hk)
  have er : (dot_S5000x128_S128x128_S5000x128_1_0_0_1_n_n).rhsIdx (ix2 p q) ((contrEquiv1 dot_S5000x128_S128x128_S5000x128_1_0_0_1_n_n 128 rfl rfl).symm k) = ix2 k q :=
    funext fun a => Fin.ext (by
      match a with
      | ⟨0, _⟩ => exact ((dot_S5000x128_S128x128_S5000x128_1_0_0_1_n_n).rhsIdx_val_of_single rfl _ _).trans hk
      | ⟨1, _⟩ => exact r128_1 _ _)
  rw [el, er]

theorem l1_0 (i : S5000x1.Idx) (q : (dot_S5000x128_S128x1_S5000x1_1_0_0_1_n_n).contr.Idx) :
    ((dot_S5000x128_S128x1_S5000x1_1_0_0_1_n_n).lhsIdx i q 0).val = (i 0).val := by
  unfold DotDims.lhsIdx
  rw [dif_neg (show ¬(0 : Fin S5000x128.rank) ∈ (dot_S5000x128_S128x1_S5000x1_1_0_0_1_n_n).lhsBatch by decide),
    dif_pos (show (0 : Fin S5000x128.rank) ∈ (dot_S5000x128_S128x1_S5000x1_1_0_0_1_n_n).lhsNonContracting by decide)]
  rfl
theorem r1_1 (i : S5000x1.Idx) (q : (dot_S5000x128_S128x1_S5000x1_1_0_0_1_n_n).contr.Idx) :
    ((dot_S5000x128_S128x1_S5000x1_1_0_0_1_n_n).rhsIdx i q 1).val = (i 1).val := by
  unfold DotDims.rhsIdx
  rw [dif_neg (show ¬(1 : Fin S128x1.rank) ∈ (dot_S5000x128_S128x1_S5000x1_1_0_0_1_n_n).rhsBatch by decide),
    dif_pos (show (1 : Fin S128x1.rank) ∈ (dot_S5000x128_S128x1_S5000x1_1_0_0_1_n_n).rhsNonContracting by decide)]
  rfl

/-- Rows of 128 against a 128 × 1 matrix, accumulated into zeros: entry (p, q) is the sum over k of l(p, k) · r(k, q). -/
theorem mm1 (l : FVec Ideal S5000x128 φ₁) (r : FVec Ideal S128x1 φ₂) (p : Fin 5000) (q : Fin 1) :
    matmul dot_S5000x128_S128x1_S5000x1_1_0_0_1_n_n none l r (constant S5000x1 .f32 0x00000000#32) (ix2 p q)
      = ∑ k : Fin 128, l (ix2 p k) * r (ix2 k q) := by
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : (dot_S5000x128_S128x1_S5000x1_1_0_0_1_n_n).lhsIdx (ix2 p q) ((contrEquiv1 dot_S5000x128_S128x1_S5000x1_1_0_0_1_n_n 128 rfl rfl).symm k) = ix2 p k :=
    funext fun a => Fin.ext (by
      match a with
      | ⟨0, _⟩ => exact l1_0 _ _
      | ⟨1, _⟩ => exact ((dot_S5000x128_S128x1_S5000x1_1_0_0_1_n_n).lhsIdx_val_of_single rfl _ _).trans hk)
  have er : (dot_S5000x128_S128x1_S5000x1_1_0_0_1_n_n).rhsIdx (ix2 p q) ((contrEquiv1 dot_S5000x128_S128x1_S5000x1_1_0_0_1_n_n 128 rfl rfl).symm k) = ix2 k q :=
    funext fun a => Fin.ext (by
      match a with
      | ⟨0, _⟩ => exact ((dot_S5000x128_S128x1_S5000x1_1_0_0_1_n_n).rhsIdx_val_of_single rfl _ _).trans hk
      | ⟨1, _⟩ => exact r1_1 _ _)
  rw [el, er]

end Products

/-! ## The blocks the two kernels store -/

/-- The bias row, given a leading unit axis and repeated down the rows, read at (p, q): the bias at q. -/
theorem bias_row (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-- The first layer's block at (p, q). -/
theorem pay1_ix (x0 x1 : Vec Ideal S5000x64 .f32) (w0 w1 : Vec Ideal S64x128 .f32) (b : Vec Ideal S128 .f32) (p : Fin 5000) (q : Fin 128) :
    k0_pay1 x0 x1 w0 w1 b (ix2 p q)
      = max (((∑ k : Fin 64, x0 (ix2 p k) * w0 (ix2 k q)) + (∑ k : Fin 64, x1 (ix2 p k) * w1 (ix2 k q))) + b (ix1 q)) (Ideal.ofBits .f32 0x00000000#32) := by
  unfold k0_pay1
  rw [maximumf_apply, addf_apply, addf_apply, mm64, mm64, bias_row]
  simp only [truncf_apply, shapeCast_self]
  rfl

/-- The second layer's block at (p, q): no maximum. -/
theorem pay2_ix (x0 x1 : Vec Ideal S5000x128 .f32) (w0 w1 : Vec Ideal S128x128 .f32) (b : Vec Ideal S128 .f32) (p : Fin 5000) (q : Fin 128) :
    k1_pay1 x0 x1 w0 w1 b (ix2 p q)
      = ((∑ k : Fin 128, x0 (ix2 p k) * w0 (ix2 k q)) + (∑ k : Fin 128, x1 (ix2 p k) * w1 (ix2 k q))) + b (ix1 q) := by
  unfold k1_pay1
  rw [addf_apply, addf_apply, mm128, mm128, bias_row]
  simp only [truncf_apply, shapeCast_self]

/-- The one-entry bias, given a leading unit axis and repeated down the rows, read at (p, u): the bias's entry. -/
theorem bias_one (b : Vec Ideal S1 .f32) (p : Fin 5000) (u : Fin 1) :
    broadcastTo S5000x1 (shapeCast S1x1 b shapeCasts_S1_S1x1) broadcasts_S1x1_S5000x1 (ix2 p u) = b (ix1 u) := by
  rw [broadcastTo_1b_ab_apply, shapeCast_a_1a_apply]

/-- The projected column at (p, u): the second layer's block times the one-column matrix, plus the bias. -/
theorem pay3_ix (x0 x1 : Vec Ideal S5000x128 .f32) (w0 w1 : Vec Ideal S128x128 .f32) (b : Vec Ideal S128 .f32)
    (wo : Vec Ideal S128x1 .f32) (bo : Vec Ideal S1 .f32) (p : Fin 5000) (u : Fin 1) :
    k1_pay2 x0 x1 w0 w1 b wo bo (ix2 p u)
      = (∑ k : Fin 128, k1_pay1 x0 x1 w0 w1 b (ix2 p k) * wo (ix2 k u)) + bo (ix1 u) := by
  unfold k1_pay2
  rw [addf_apply, mm1, bias_one]
  simp only [truncf_apply]

/-! ## The layers as functions of whole arrays, index by index -/

/-- The first layer over all 100000 rows: row i₀ of the mean times W_l, plus row i₀ of x times W_r, plus the bias,
    cut off below at 0. -/
def layer1 (A X : S100000x64.Idx → EReal) (Wl Wr : S64x128.Idx → EReal) (B : S128.Idx → EReal) : S100000x128.Idx → EReal :=
  fun i => max (((∑ k : Fin 64, A (ix2 (i 0) k) * Wl (ix2 k (i 1))) + (∑ k : Fin 64, X (ix2 (i 0) k) * Wr (ix2 k (i 1)))) + B (ix1 (i 1)))
    (Ideal.ofBits .f32 0x00000000#32)

/-- The second layer over all rows: the same affine map on rows of 128, with no cut-off. -/
def layer2 (A X : S100000x128.Idx → EReal) (Wl Wr : S128x128.Idx → EReal) (B : S128.Idx → EReal) : S100000x128.Idx → EReal :=
  fun i => ((∑ k : Fin 128, A (ix2 (i 0) k) * Wl (ix2 k (i 1))) + (∑ k : Fin 128, X (ix2 (i 0) k) * Wr (ix2 k (i 1)))) + B (ix1 (i 1))

/-- The output column over all rows: each row of the second layer against the one-column matrix, plus the bias. -/
def proj (H : S100000x128.Idx → EReal) (Wo : S128x1.Idx → EReal) (Bo : S1.Idx → EReal) : S100000x1.Idx → EReal :=
  fun i => (∑ k : Fin 128, H (ix2 (i 0) k) * Wo (ix2 k (i 1))) + Bo (ix1 (i 1))

end Cert.KernelIdeal.Dense

end
-- ==== Proof.Blocks0.lean ====
/-
  The first dense layer's grid: twenty blocks of 5000 rows.  Point t reads rows 5000·t … 5000·t + 4999 of the mean and
  of x, the two weight matrices and the bias whole, and writes back rows 5000·t … 5000·t + 4999 of the hidden state.
  Each entry of a layer depends on one row of its two row operands only, so the block point t writes is the
  restriction of the whole-array layer to those rows; the twenty row ranges tile the 100000 rows, so after the
  grid the hidden-state array is the layer of the arrays the grid found.
-/
import proofs.«136946_j42150809043600_1_alg».proof.Proof.Gen.KernelIdeal.Frame
import proofs.«136946_j42150809043600_1_alg».proof.Proof.Dense

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Dense

/-- The zero offsets of a whole-block access, however spelt. -/
theorem hz2 : (![0, 0] : Fin 2 → Nat) = fun _ => 0 := funext fun a => by fin_cases a <;> rfl
theorem hz1 : (![0] : Fin 1 → Nat) = fun _ => 0 := funext fun a => by fin_cases a <;> rfl

variable (V : (c : Dev nD) → (b : Ref sig .tc) → Buf (Elt Ideal) ((c : Thread nD τ).loc b))

/-- The block index maps, decided once over the twenty points: the row operands and the result move with the
    point along the rows; the weights and the bias stay at block 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The block point t stores, at a local index, is the layer of the whole arrays at that index's place in the array. -/
theorem block0_5 (c : Dev nD) (t : Fin cfg0.N) (j : S5000x128.Idx) :
    k0_pay1 (iblk0 V c 0 t) (iblk0 V c 1 t) (iblk0 V c 2 t) (iblk0 V c 3 t) (iblk0 V c 4 t) j
      = layer1 (V c main_v22) (V c main_arg0) (V c main_arg2) (V c main_arg3) (V c main_arg4) (((cfg0.win 5).blk t).view.emb j) := by
  obtain ⟨p, q, rfl⟩ : ∃ (p : Fin 5000) (q : Fin 128), j = ix2 p q := ⟨j 0, j 1, eq_ix2 j⟩
  refine (pay1_ix _ _ _ _ _ p q).trans ?_
  obtain ⟨e00, e01, e10, e11, e20, e21, e30, e31, e40, e50, e51⟩ := idx0 t
  have hA : ∀ k : Fin 64, iblk0 V c 0 t (ix2 p k) = V c main_v22 (ix2 ((((cfg0.win 5).blk t).view.emb (ix2 p q)) 0) k) := fun k => by
    show V c main_v22 (((cfg0.win 0).blk t).view.emb (ix2 p k)) = _
    refine congrArg (V c main_v22) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 64 + 1 * k.val = k.val; omega
  have hX : ∀ k : Fin 64, iblk0 V c 1 t (ix2 p k) = V c main_arg0 (ix2 ((((cfg0.win 5).blk t).view.emb (ix2 p q)) 0) k) := fun k => by
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 64 + 1 * k.val = k.val; omega
  have hWl : ∀ k : Fin 64, iblk0 V c 2 t (ix2 k q) = V c main_arg2 (ix2 k ((((cfg0.win 5).blk t).view.emb (ix2 p q)) 1)) := fun k => by
    show V c main_arg2 (((cfg0.win 2).blk t).view.emb (ix2 k q)) = _
    refine congrArg (V c main_arg2) (funext fun a => Fin.ext ?_)
    match a with
    | ⟨0, _⟩ => show win0_2.index t (0 : Fin 2) * 64 + 1 * k.val = k.val; omega
    | ⟨1, _⟩ => show win0_2.index t (1 : Fin 2) * 128 + 1 * q.val = win0_5.index t (1 : Fin 2) * 128 + 1 * q.val; omega
  have hWr : ∀ k : Fin 64, iblk0 V c 3 t (ix2 k q) = V c main_arg3 (ix2 k ((((cfg0.win 5).blk t).view.emb (ix2 p q)) 1)) := fun k => by
    show V c main_arg3 (((cfg0.win 3).blk t).view.emb (ix2 k q)) = _
    refine congrArg (V c main_arg3) (funext fun a => Fin.ext ?_)
    match a with
    | ⟨0, _⟩ => show win0_3.index t (0 : Fin 2) * 64 + 1 * k.val = k.val; omega
    | ⟨1, _⟩ => show win0_3.index t (1 : Fin 2) * 128 + 1 * q.val = win0_5.index t (1 : Fin 2) * 128 + 1 * q.val; omega
  have hB : iblk0 V c 4 t (ix1 q) = V c main_arg4 (ix1 ((((cfg0.win 5).blk t).view.emb (ix2 p q)) 1)) := by
    show V c main_arg4 (((cfg0.win 4).blk t).view.emb (ix1 q)) = _
    refine congrArg (V c main_arg4) (funext fun a => Fin.ext ?_)
    match a with
    | ⟨0, _⟩ => show win0_4.index t (0 : Fin 1) * 128 + 1 * q.val = win0_5.index t (1 : Fin 2) * 128 + 1 * q.val; omega
  simp only [hA, hX, hWl, hWr, hB]
  rfl

/-- What point t writes back is block t of the layer of the arrays the grid found. -/
theorem flushed0_5_eq (c : Dev nD) (t : Fin cfg0.N) :
    (dat0 V c).flushed 5 t = ((cfg0.win 5).blk t).view.read (Elt Ideal)
      (layer1 (V c main_v22) (V c main_arg0) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S5000x64) hz2, View.ld_unit_zero (S := S64x128) hz2, View.ld_unit_zero (S := S128) hz1]
  funext j
  exact block0_5 V c t j

/-- An index of the hidden-state array is in point t's block iff each coordinate is in the block's range. -/
theorem mem_blk0_5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Row r is in the block of point r / 5000: the blocks tile the array. -/
theorem cover0_5 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, e50, e51⟩ := idx0 t
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- After the grid the hidden-state array is the first layer of the arrays the grid found. -/
theorem final0 (c : Dev nD) : (dat0 V c).arrAt 5 cfg0.N
    = layer1 (V c main_v22) (V c main_arg0) (V c main_arg2) (V c main_arg3) (V c main_arg4) :=
  (dat0 V c).arrAt_eq_of_cover 5 _ (fun t _ => flushed0_5_eq V c t) (cover0_5)

end Cert.KernelIdeal.Blocks

end
-- ==== Proof.Blocks1.lean ====
/-
  The second dense layer's grid: twenty blocks of 5000 rows again.  Point t reads rows 5000·t … 5000·t + 4999 of the
  second mean and of the first hidden state, the weights and biases whole, and writes back the same rows of the
  second hidden state and of the one-column output.  Both outputs are row-local functions of the row operands, so
  each block is the restriction of the whole-array function, and the row ranges tile both arrays.
-/
import proofs.«136946_j42150809043600_1_alg».proof.Proof.Blocks0

set_option maxRecDepth 16384

noncomputable section

namespace Cert.KernelIdeal.Blocks

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Dense

variable (V : (c : Dev nD) → (b : Ref sig .tc) → Buf (Elt Ideal) ((c : Thread nD τ).loc b))

/-- The block index maps of the second grid, decided once over its twenty points. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- The hidden-state block point t stores, at local (p, q), is the layer of the whole arrays at row 5000·t + p — said
    for any array index e whose row is that row and whose column is q. -/
theorem block1_at (c : Dev nD) (t : Fin cfg1.N) (p : Fin 5000) (q : Fin 128) (e : S100000x128.Idx)
    (he0 : (e 0).val = t.val * 5000 + p.val) (he1 : (e 1).val = q.val) :
    k1_pay1 (iblk1 V c 0 t) (iblk1 V c 1 t) (iblk1 V c 2 t) (iblk1 V c 3 t) (iblk1 V c 4 t) (ix2 p q)
      = layer2 (V c main_v36) (V c main_v23) (V c main_arg5) (V c main_arg6) (V c main_arg7) e := by
  refine (pay2_ix _ _ _ _ _ p q).trans ?_
  obtain ⟨e00, e01, e10, e11, e20, e21, e30, e31, e40, e50, e51, e60, e70, e71, e80, e81⟩ := idx1 t
  have hA : ∀ k : Fin 128, iblk1 V c 0 t (ix2 p k) = V c main_v36 (ix2 (e 0) k) := fun k => by
    show V c main_v36 (((cfg1.win 0).blk t).view.emb (ix2 p k)) = _
    refine congrArg (V c main_v36) (funext fun a => Fin.ext ?_)
    match a with
    | ⟨0, _⟩ => show win1_0.index t (0 : Fin 2) * 5000 + 1 * p.val = (e 0).val; omega
    | ⟨1, _⟩ => show win1_0.index t (1 : Fin 2) * 128 + 1 * k.val = k.val; omega
  have hX : ∀ k : Fin 128, iblk1 V c 1 t (ix2 p k) = V c main_v23 (ix2 (e 0) k) := fun k => by
    show V c main_v23 (((cfg1.win 1).blk t).view.emb (ix2 p k)) = _
    refine congrArg (V c main_v23) (funext fun a => Fin.ext ?_)
    match a with
    | ⟨0, _⟩ => show win1_1.index t (0 : Fin 2) * 5000 + 1 * p.val = (e 0).val; omega
    | ⟨1, _⟩ => show win1_1.index t (1 : Fin 2) * 128 + 1 * k.val = k.val; omega
  have hWl : ∀ k : Fin 128, iblk1 V c 2 t (ix2 k q) = V c main_arg5 (ix2 k (e 1)) := fun k => by
    show V c main_arg5 (((cfg1.win 2).blk t).view.emb (ix2 k q)) = _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = (e 1).val; omega
  have hWr : ∀ k : Fin 128, iblk1 V c 3 t (ix2 k q) = V c main_arg6 (ix2 k (e 1)) := fun k => by
    show V c main_arg6 (((cfg1.win 3).blk t).view.emb (ix2 k q)) = _
    refine congrArg (V c main_arg6) (funext fun a => Fin.ext ?_)
    match a with
    | ⟨0, _⟩ => show win1_3.index t (0 : Fin 2) * 128 + 1 * k.val = k.val; omega
    | ⟨1, _⟩ => show win1_3.index t (1 : Fin 2) * 128 + 1 * q.val = (e 1).val; omega
  have hB : iblk1 V c 4 t (ix1 q) = V c main_arg7 (ix1 (e 1)) := by
    show V c main_arg7 (((cfg1.win 4).blk t).view.emb (ix1 q)) = _
    refine congrArg (V c main_arg7) (funext fun a => Fin.ext ?_)
    match a with
    | ⟨0, _⟩ => show win1_4.index t (0 : Fin 1) * 128 + 1 * q.val = (e 1).val; omega
  simp only [hA, hX, hWl, hWr, hB]
  rfl

/-- The same at a local index of the hidden-state block. -/
theorem block1_7 (c : Dev nD) (t : Fin cfg1.N) (j : S5000x128.Idx) :
    k1_pay1 (iblk1 V c 0 t) (iblk1 V c 1 t) (iblk1 V c 2 t) (iblk1 V c 3 t) (iblk1 V c 4 t) j
      = layer2 (V c main_v36) (V c main_v23) (V c main_arg5) (V c main_arg6) (V c main_arg7) (((cfg1.win 7).blk t).view.emb j) := by
  obtain ⟨p, q, rfl⟩ : ∃ (p : Fin 5000) (q : Fin 128), j = ix2 p q := ⟨j 0, j 1, eq_ix2 j⟩
  obtain ⟨e00, e01, e10, e11, e20, e21, e30, e31, e40, e50, e51, e60, e70, e71, e80, e81⟩ := idx1 t
  refine block1_at V c t p q _ ?_ ?_
  · show win1_7.index t (0 : Fin 2) * 5000 + 1 * p.val = t.val * 5000 + p.val; omega
  · show win1_7.index t (1 : Fin 2) * 128 + 1 * q.val = q.val; omega

/-- The output-column block point t stores is the projection of the whole second hidden state at its place in the
    array: entry p of the block is row 5000·t + p of the layer against the one column, plus the bias. -/
theorem block1_8 (c : Dev nD) (t : Fin cfg1.N) (j : S5000x1.Idx) :
    k1_pay2 (iblk1 V c 0 t) (iblk1 V c 1 t) (iblk1 V c 2 t) (iblk1 V c 3 t) (iblk1 V c 4 t) (iblk1 V c 5 t) (iblk1 V c 6 t) j
      = proj (layer2 (V c main_v36) (V c main_v23) (V c main_arg5) (V c main_arg6) (V c main_arg7)) (V c main_arg8) (V c main_arg9)
          (((cfg1.win 8).blk t).view.emb j) := by
  obtain ⟨p, u, rfl⟩ : ∃ (p : Fin 5000) (u : Fin 1), j = ix2 p u := ⟨j 0, j 1, eq_ix2 j⟩
  refine (pay3_ix _ _ _ _ _ _ _ p u).trans ?_
  obtain ⟨e00, e01, e10, e11, e20, e21, e30, e31, e40, e50, e51, e60, e70, e71, e80, e81⟩ := idx1 t
  have hH : ∀ k : Fin 128, k1_pay1 (iblk1 V c 0 t) (iblk1 V c 1 t) (iblk1 V c 2 t) (iblk1 V c 3 t) (iblk1 V c 4 t) (ix2 p k)
      = layer2 (V c main_v36) (V c main_v23) (V c main_arg5) (V c main_arg6) (V c main_arg7)
          (ix2 ((((cfg1.win 8).blk t).view.emb (ix2 p u)) 0) k) := fun k => by
    refine block1_at V c t p k _ ?_ rfl
    show win1_8.index t (0 : Fin 2) * 5000 + 1 * p.val = t.val * 5000 + p.val; omega
  have hWo : ∀ k : Fin 128, iblk1 V c 5 t (ix2 k u) = V c main_arg8 (ix2 k ((((cfg1.win 8).blk t).view.emb (ix2 p u)) 1)) := fun k => by
    show V c main_arg8 (((cfg1.win 5).blk t).view.emb (ix2 k u)) = _
    refine congrArg (V c main_arg8) (funext fun a => Fin.ext ?_)
    match a with
    | ⟨0, _⟩ => show win1_5.index t (0 : Fin 2) * 128 + 1 * k.val = k.val; omega
    | ⟨1, _⟩ => show win1_5.index t (1 : Fin 2) * 1 + 1 * u.val = win1_8.index t (1 : Fin 2) * 1 + 1 * u.val; omega
  have hBo : iblk1 V c 6 t (ix1 u) = V c main_arg9 (ix1 ((((cfg1.win 8).blk t).view.emb (ix2 p u)) 1)) := by
    show V c main_arg9 (((cfg1.win 6).blk t).view.emb (ix1 u)) = _
    refine congrArg (V c main_arg9) (funext fun a => Fin.ext ?_)
    match a with
    | ⟨0, _⟩ => show win1_6.index t (0 : Fin 1) * 1 + 1 * u.val = win1_8.index t (1 : Fin 2) * 1 + 1 * u.val; omega
  simp only [hH, hWo, hBo]
  rfl

/-- What point t writes back to the second hidden state is block t of the layer of the arrays the grid found. -/
theorem flushed1_7_eq (c : Dev nD) (t : Fin cfg1.N) :
    (dat1 V c).flushed 7 t = ((cfg1.win 7).blk t).view.read (Elt Ideal)
      (layer2 (V c main_v36) (V c main_v23) (V c main_arg5) (V c main_arg6) (V c main_arg7)) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128x128) hz2, View.ld_unit_zero (S := S128) hz1]
  funext j
  exact block1_7 V c t j

/-- What point t writes back to the output column is block t of the projection. -/
theorem flushed1_8_eq (c : Dev nD) (t : Fin cfg1.N) :
    (dat1 V c).flushed 8 t = ((cfg1.win 8).blk t).view.read (Elt Ideal)
      (proj (layer2 (V c main_v36) (V c main_v23) (V c main_arg5) (V c main_arg6) (V c main_arg7)) (V c main_arg8) (V c main_arg9)) := by
  show (cfg1.win 8).cut (grid1.coords t) ((dat1 V c).after 8 t) = _
  rw [after1_8]
  unfold out1_8
  rw [View.canon_unit_zero hz2]
  simp only [View.ld_unit_zero (S := S5000x128) hz2, View.ld_unit_zero (S := S128x128) hz2, View.ld_unit_zero (S := S128) hz1,
    View.ld_unit_zero (S := S128x1) hz2, View.ld_unit_zero (S := S1) hz1]
  funext j
  exact block1_8 V c t j

theorem mem_blk1_7 (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v37_0).slice (win1_7.rect t)).set ↔ _
  rw [View.set_slice_whole, Rect.mem_set_unit]
  exact Iff.rfl

theorem mem_blk1_8 (t : Fin cfg1.N) (i : S100000x1.Idx) :
    i ∈ ((cfg1.win 8).blk t).view.set ↔ ∀ a : Fin 2, win1_8.index t a * S5000x1.size a ≤ (i a).val ∧ (i a).val < win1_8.index t a * S5000x1.size a + S5000x1.size a := by
  show i ∈ ((View.whole main_v37_1).slice (win1_8.rect t)).set ↔ _
  rw [View.set_slice_whole, Rect.mem_set_unit]
  exact Iff.rfl

/-- Row r of the second hidden state is in the block of point r / 5000. -/
theorem cover1_7 (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e70, e71, -, -⟩ := idx1 t
  refine ⟨t, flush1_7 t, ?_⟩
  rw [mem_blk1_7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- Row r of the output column is in the block of point r / 5000. -/
theorem cover1_8 (i : S100000x1.Idx) : ∃ t : Fin cfg1.N, (cfg1.win 8).flush t = true ∧ i ∈ ((cfg1.win 8).blk t).view.set := by
  have hi0 : (i 0).val < 100000 := (i 0).isLt
  have hi1 : (i 1).val < 1 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, e80, e81⟩ := idx1 t
  refine ⟨t, flush1_8 t, ?_⟩
  rw [mem_blk1_8]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 1 ≤ (i 1).val ∧ (i 1).val < win1_8.index t (1 : Fin 2) * 1 + 1; omega

/-- After the grid the second hidden state is the second layer of the arrays the grid found. -/
theorem final1_7 (c : Dev nD) : (dat1 V c).arrAt 7 cfg1.N
    = layer2 (V c main_v36) (V c main_v23) (V c main_arg5) (V c main_arg6) (V c main_arg7) :=
  (dat1 V c).arrAt_eq_of_cover 7 _ (fun t _ => flushed1_7_eq V c t) (cover1_7)

/-- After the grid the output column is the projection of that layer. -/
theorem final1_8 (c : Dev nD) : (dat1 V c).arrAt 8 cfg1.N
    = proj (layer2 (V c main_v36) (V c main_v23) (V c main_arg5) (V c main_arg6) (V c main_arg7)) (V c main_arg8) (V c main_arg9) :=
  (dat1 V c).arrAt_eq_of_cover 8 _ (fun t _ => flushed1_8_eq V c t) (cover1_8)

end Cert.KernelIdeal.Blocks

end
-- ==== Proof.RefLayers.lean ====
/-
  The reference's three results are the same three whole-array functions the kernels' blocks are cut from.

  Read one operation at a time, the reference's first hidden state at (i₀, i₁) is the maximum with 0 of
  the sum over k of mean(i₀, k) · W_l1(k, i₁), plus the sum over k of x(i₀, k) · W_r1(k, i₁), plus b1(i₁); its second hidden
  state is the same affine map of the second mean and the first hidden state; and its output at i is row i of
  the second hidden state against the one column of W_out, plus b_out.  Only the spelling of the indices differs
  from the layers' definitions, coordinate by coordinate.
-/
import proofs.«136946_j42150809043600_1_alg».proof.Proof.Gen.ReferenceIdeal.Read
import proofs.«136946_j42150809043600_1_alg».proof.Proof.Dense

set_option maxRecDepth 16384

noncomputable section

namespace Cert.ReferenceIdeal.Layers

open Idealize.ShloMosaic Idealize.ShloMosaic.TcCoe Idealize.ShloMosaic.ValueIdx
open Cert.ReferenceIdeal Cert.ReferenceIdeal.Read Cert.KernelIdeal.Dense

variable (x0 : (⟨S100000x64, .f32⟩ : BufTy).Contents (Elt Ideal)) (x1 : (⟨S2x1600000, .i32⟩ : BufTy).Contents (Elt Ideal))
  (x2 x3 : (⟨S64x128, .f32⟩ : BufTy).Contents (Elt Ideal)) (x4 : (⟨S128, .f32⟩ : BufTy).Contents (Elt Ideal))
  (x5 x6 : (⟨S128x128, .f32⟩ : BufTy).Contents (Elt Ideal)) (x7 : (⟨S128, .f32⟩ : BufTy).Contents (Elt Ideal))
  (x8 : (⟨S128x1, .f32⟩ : BufTy).Contents (Elt Ideal)) (x9 : (⟨S1, .f32⟩ : BufTy).Contents (Elt Ideal))

/-- The first hidden state is the first layer of the first mean and x. -/
theorem hidden1_eq : val_main_v29 (F := Ideal) x0 x1 x2 x3 x4 = layer1 (val_main_v22 (F := Ideal) x0 x1) x0 x2 x3 x4 := by
  funext i
  have el : ∀ k : Fin 64, lidx_main_v23 i k = ix2 (i 0) k := fun k => funext fun a => Fin.ext (by match a with | ⟨0, _⟩ => rfl | ⟨1, _⟩ => rfl)
  have er : ∀ k : Fin 64, ridx_main_v23 i k = ix2 k (i 1) := fun k => funext fun a => Fin.ext (by match a with | ⟨0, _⟩ => rfl | ⟨1, _⟩ => rfl)
  have el' : ∀ k : Fin 64, lidx_main_v24 i k = ix2 (i 0) k := fun k => funext fun a => Fin.ext (by match a with | ⟨0, _⟩ => rfl | ⟨1, _⟩ => rfl)
  have er' : ∀ k : Fin 64, ridx_main_v24 i k = ix2 k (i 1) := fun k => funext fun a => Fin.ext (by match a with | ⟨0, _⟩ => rfl | ⟨1, _⟩ => rfl)
  have eb : idx_main_v26 (idx_main_v27 i) = ix1 (i 1) := funext fun a => Fin.ext (by match a with | ⟨0, _⟩ => rfl)
  rw [val_main_v29_apply, val_main_v28_apply, val_main_v25_apply, val_main_v23_apply, val_main_v24_apply,
    val_main_v27_apply, val_main_v26_apply, val_main_call0_v0_apply, val_main_call0_cst_apply]
  simp only [el, er, el', er', eb]
  rfl

/-- The second hidden state is the second layer of the second mean and the first hidden state. -/
theorem hidden2_eq : val_main_v54 (F := Ideal) x0 x1 x2 x3 x4 x5 x6 x7
    = layer2 (val_main_v48 (F := Ideal) x0 x1 x2 x3 x4) (val_main_v29 (F := Ideal) x0 x1 x2 x3 x4) x5 x6 x7 := by
  funext i
  have el : ∀ k : Fin 128, lidx_main_v49 i k = ix2 (i 0) k := fun k => funext fun a => Fin.ext (by match a with | ⟨0, _⟩ => rfl | ⟨1, _⟩ => rfl)
  have er : ∀ k : Fin 128, ridx_main_v49 i k = ix2 k (i 1) := fun k => funext fun a => Fin.ext (by match a with | ⟨0, _⟩ => rfl | ⟨1, _⟩ => rfl)
  have el' : ∀ k : Fin 128, lidx_main_v50 i k = ix2 (i 0) k := fun k => funext fun a => Fin.ext (by match a with | ⟨0, _⟩ => rfl | ⟨1, _⟩ => rfl)
  have er' : ∀ k : Fin 128, ridx_main_v50 i k = ix2 k (i 1) := fun k => funext fun a => Fin.ext (by match a with | ⟨0, _⟩ => rfl | ⟨1, _⟩ => rfl)
  have eb : idx_main_v52 (idx_main_v53 i) = ix1 (i 1) := funext fun a => Fin.ext (by match a with | ⟨0, _⟩ => rfl)
  rw [val_main_v54_apply, val_main_v51_apply, val_main_v49_apply, val_main_v50_apply, val_main_v53_apply, val_main_v52_apply]
  simp only [el, er, el', er', eb]
  rfl

/-- The output column, before its unit axis is dropped, is the projection of the second hidden state. -/
theorem column_eq : val_main_v58 (F := Ideal) x0 x1 x2 x3 x4 x5 x6 x7 x8 x9
    = proj (val_main_v54 (F := Ideal) x0 x1 x2 x3 x4 x5 x6 x7) x8 x9 := by
  funext i
  have el : ∀ k : Fin 128, lidx_main_v55 i k = ix2 (i 0) k := fun k => funext fun a => Fin.ext (by match a with | ⟨0, _⟩ => rfl | ⟨1, _⟩ => rfl)
  have er : ∀ k : Fin 128, ridx_main_v55 i k = ix2 k (i 1) := fun k => funext fun a => Fin.ext (by match a with | ⟨0, _⟩ => rfl | ⟨1, _⟩ => rfl)
  have eb : idx_main_v56 (idx_main_v57 i) = ix1 (i 1) := funext fun a => Fin.ext (by
    match a with | ⟨0, _⟩ => show 0 = (i 1).val; have h1 : (i 1).val < 1 := (i 1).isLt; omega)
  rw [val_main_v58_apply, val_main_v55_apply, val_main_v57_apply, val_main_v56_apply]
  simp only [el, er, eb]
  rfl

end Cert.ReferenceIdeal.Layers

end
-- ==== Proof.Fold.lean ====
/-
  Reading the last boundary's contents back through the five segments.

  Before the first grid the host has computed the first mean: the sum of x over each node's incoming edges,
  divided by the node's in-degree (at least 1) — the very operations, in the very order of operands, the
  reference applies.  The first grid leaves the first layer of that mean and x in the hidden-state array and
  touches nothing else the later segments read.  The second stretch of host operations computes the second mean
  from that array and from the edge lists and in-degrees the first stretch left; the second grid leaves the second
  layer and its projected column; the last host operation drops the column's unit axis.  Each step is one equation
  between whole arrays, and chained they say that the three results are the reference's three stages of the
  launch arguments.
-/
import proofs.«136946_j42150809043600_1_alg».proof.Proof.Gen.KernelIdeal.Frame
import proofs.«136946_j42150809043600_1_alg».proof.Proof.Gen.ReferenceIdeal.Read
import proofs.«136946_j42150809043600_1_alg».proof.Proof.Blocks1
import proofs.«136946_j42150809043600_1_alg».proof.Proof.RefLayers

set_option maxRecDepth 16384

noncomputable section

namespace Cert.KernelIdeal.Whole

open Idealize.ShloMosaic Idealize.ShloMosaic.TcCoe Idealize.ShloMosaic.ValueIdx
open Idealize.SL.Sem Idealize.ShloMosaic.StableHlo
open Cert.KernelIdeal Cert.KernelIdeal.Gen Cert.KernelIdeal.Dense Cert.KernelIdeal.Blocks
open Cert.ReferenceIdeal.Read Cert.ReferenceIdeal.Layers

variable (m : (ℓ : Loc nD τ sig) → Buf (Elt Ideal) ℓ) (ρ : Dev nD → PrngReg) (c : Dev nD)

/-! ## At the first grid's entry -/

set_option maxHeartbeats 4000000 in
/-- The first grid finds the first mean in its first row operand. -/
theorem entry0_mean : V1 m ρ c main_v22 = val_main_v22 (F := Ideal) (m ((c.tc : Thread nD τ).loc main_arg0)) (m ((c.tc : Thread nD τ).loc main_arg1)) := by
  show StableHlo.after hostOps0 (W0 m ρ c) (Proc.devRef .tc main_v22) = _
  after_results_simp
  rfl

set_option maxHeartbeats 4000000 in
theorem entry0_x : V1 m ρ c main_arg0 = (m ((c.tc : Thread nD τ).loc main_arg0)) := by
  show StableHlo.after hostOps0 (W0 m ρ c) (Proc.devRef .tc main_arg0) = _
  after_results_simp
set_option maxHeartbeats 4000000 in
theorem entry0_wl : V1 m ρ c main_arg2 = (m ((c.tc : Thread nD τ).loc main_arg2)) := by
  show StableHlo.after hostOps0 (W0 m ρ c) (Proc.devRef .tc main_arg2) = _
  after_results_simp
set_option maxHeartbeats 4000000 in
theorem entry0_wr : V1 m ρ c main_arg3 = (m ((c.tc : Thread nD τ).loc main_arg3)) := by
  show StableHlo.after hostOps0 (W0 m ρ c) (Proc.devRef .tc main_arg3) = _
  after_results_simp
set_option maxHeartbeats 4000000 in
theorem entry0_b : V1 m ρ c main_arg4 = (m ((c.tc : Thread nD τ).loc main_arg4)) := by
  show StableHlo.after hostOps0 (W0 m ρ c) (Proc.devRef .tc main_arg4) = _
  after_results_simp

/-! ## At the first grid's exit -/

/-- The hidden-state array holds the reference's first hidden state. -/
theorem exit0_hidden : W2 m ρ c (Proc.devRef .tc main_v23) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W2_arr m ρ c 5).trans ((final0 (V1 m ρ) c).trans (by
    rw [entry0_mean, entry0_x, entry0_wl, entry0_wr, entry0_b]
    exact (hidden1_eq _ _ _ _ _).symm))

set_option maxHeartbeats 4000000 in
/-- The source list the first stretch cut from the edge index is still there. -/
theorem exit0_src : W2 m ρ c (Proc.devRef .tc main_v1) = val_main_v1 (F := Ideal) (m ((c.tc : Thread nD τ).loc main_arg1)) :=
  (W2_of_ne m ρ c main_v1 (by decide)).trans (by
    show StableHlo.after hostOps0 (W0 m ρ c) (Proc.devRef .tc main_v1) = _
    after_results_simp
    rfl)
set_option maxHeartbeats 4000000 in
/-- So is the destination list. -/
theorem exit0_dst : W2 m ρ c (Proc.devRef .tc main_v3) = val_main_v3 (F := Ideal) (m ((c.tc : Thread nD τ).loc main_arg1)) :=
  (W2_of_ne m ρ c main_v3 (by decide)).trans (by
    show StableHlo.after hostOps0 (W0 m ρ c) (Proc.devRef .tc main_v3) = _
    after_results_simp
    rfl)
set_option maxHeartbeats 4000000 in
/-- So are the in-degrees, at least 1 each (the reference counts them a second time: the same term). -/
theorem exit0_deg : W2 m ρ c (Proc.devRef .tc main_v9) = val_main_v45 (F := Ideal) (m ((c.tc : Thread nD τ).loc main_arg1)) :=
  (W2_of_ne m ρ c main_v9 (by decide)).trans (by
    show StableHlo.after hostOps0 (W0 m ρ c) (Proc.devRef .tc main_v9) = _
    after_results_simp
    rfl)

/-! ## At the second grid's entry -/

set_option maxHeartbeats 4000000 in
/-- The second grid finds the second mean — of the first hidden state, over the same edges and in-degrees — in its
    first row operand. -/
theorem entry1_mean : V3 m ρ c main_v36 = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v36) = _
  after_results_simp
  rw [exit0_src, exit0_dst, exit0_deg, exit0_hidden]
  rfl

set_option maxHeartbeats 4000000 in
/-- And the first hidden state in its second. -/
theorem entry1_hidden : V3 m ρ c main_v23 = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps1 (W2 m ρ c) (Proc.devRef .tc main_v23) = _
  after_results_simp
  exact exit0_hidden m ρ c

set_option maxHeartbeats 4000000 in
/-- The second layer's weights and biases are as launched. -/
theorem entry1_wl : V3 m ρ c main_arg5 = (m ((c.tc : Thread nD τ).loc main_arg5)) := by
  show StableHlo.after hostOps1 (W2 m ρ c) (Proc.devRef .tc main_arg5) = _
  after_results_simp
  refine (W2_of_ne m ρ c main_arg5 (by decide)).trans ?_
  show StableHlo.after hostOps0 (W0 m ρ c) (Proc.devRef .tc main_arg5) = _
  after_results_simp
set_option maxHeartbeats 4000000 in
theorem entry1_wr : V3 m ρ c main_arg6 = (m ((c.tc : Thread nD τ).loc main_arg6)) := by
  show StableHlo.after hostOps1 (W2 m ρ c) (Proc.devRef .tc main_arg6) = _
  after_results_simp
  refine (W2_of_ne m ρ c main_arg6 (by decide)).trans ?_
  show StableHlo.after hostOps0 (W0 m ρ c) (Proc.devRef .tc main_arg6) = _
  after_results_simp
set_option maxHeartbeats 4000000 in
theorem entry1_b : V3 m ρ c main_arg7 = (m ((c.tc : Thread nD τ).loc main_arg7)) := by
  show StableHlo.after hostOps1 (W2 m ρ c) (Proc.devRef .tc main_arg7) = _
  after_results_simp
  refine (W2_of_ne m ρ c main_arg7 (by decide)).trans ?_
  show StableHlo.after hostOps0 (W0 m ρ c) (Proc.devRef .tc main_arg7) = _
  after_results_simp
set_option maxHeartbeats 4000000 in
theorem entry1_wo : V3 m ρ c main_arg8 = (m ((c.tc : Thread nD τ).loc main_arg8)) := by
  show StableHlo.after hostOps1 (W2 m ρ c) (Proc.devRef .tc main_arg8) = _
  after_results_simp
  refine (W2_of_ne m ρ c main_arg8 (by decide)).trans ?_
  show StableHlo.after hostOps0 (W0 m ρ c) (Proc.devRef .tc main_arg8) = _
  after_results_simp
set_option maxHeartbeats 4000000 in
theorem entry1_bo : V3 m ρ c main_arg9 = (m ((c.tc : Thread nD τ).loc main_arg9)) := by
  show StableHlo.after hostOps1 (W2 m ρ c) (Proc.devRef .tc main_arg9) = _
  after_results_simp
  refine (W2_of_ne m ρ c main_arg9 (by decide)).trans ?_
  show StableHlo.after hostOps0 (W0 m ρ c) (Proc.devRef .tc main_arg9) = _
  after_results_simp

/-! ## At the second grid's exit -/

/-- The second hidden-state array holds the reference's second hidden state. -/
theorem exit1_hidden2 : W4 m ρ c (Proc.devRef .tc main_v37_0)
    = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W4_arr m ρ c 7).trans ((final1_7 (V3 m ρ) c).trans (by
    rw [entry1_mean, entry1_hidden, entry1_wl, entry1_wr, entry1_b]
    exact (hidden2_eq _ _ _ _ _ _ _ _).symm))

/-- The column array holds the reference's output before its unit axis is dropped. -/
theorem exit1_column : W4 m ρ c (Proc.devRef .tc main_v37_1)
    = val_main_v58 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W4_arr m ρ c 8).trans ((final1_8 (V3 m ρ) c).trans (by
    rw [entry1_mean, entry1_hidden, entry1_wl, entry1_wr, entry1_b, entry1_wo, entry1_bo, ← hidden2_eq]
    exact (column_eq _ _ _ _ _ _ _ _ _ _).symm))

/-- The first hidden state, an input of the second grid, is left as found. -/
theorem exit1_hidden : W4 m ρ c (Proc.devRef .tc main_v23)
    = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W4_arr m ρ c 1).trans (((dat1 (V3 m ρ) c).arrAt_in 1 rfl _).trans ((A_eq1 (V3 m ρ) c 1).trans (entry1_hidden m ρ c)))

/-! ## At the return -/

/-- The first result: the column with its unit axis dropped. -/
theorem result0 : W5 m ρ c (Proc.devRef .tc main_v38)
    = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  show StableHlo.after hostOps2 (W4 m ρ c) (Proc.devRef .tc main_v38) = _
  after_results
  rw [exit1_column]
  rfl

/-- The second result: the first hidden state. -/
theorem result1 : W5 m ρ c (Proc.devRef .tc main_v23)
    = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps2 (W4 m ρ c) (Proc.devRef .tc main_v23) = _
  after_results
  exact exit1_hidden m ρ c

/-- The third result: the second hidden state. -/
theorem result2 : W5 m ρ c (Proc.devRef .tc main_v37_0)
    = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps2 (W4 m ρ c) (Proc.devRef .tc main_v37_0) = _
  after_results
  exact exit1_hidden2 m ρ c

end Cert.KernelIdeal.Whole

end
-- ==== Proof.lean ====
/-
  A two-layer GraphSAGE network with mean aggregation on 100000 nodes and 1600000 edges, and a final
  projection to one number per node, against its plain reference.

  Both programs aggregate on the host in the same way: gather the source rows, add them up per destination node,
  divide by the node's in-degree (at least 1).  The kernel program then computes each dense layer,
  mean · W_l + x · W_r + b (cut off below at 0 in the first layer), on a grid of twenty blocks of 5000 rows, rounding
  the operands of every product to bf16 first, where the reference takes whole-array products; the second grid also
  multiplies its block by the one-column output matrix and adds the output bias.  Over the extended reals the
  rounding is the identity and a product accumulated into zeros is the plain sum over the contracted axis, and every
  entry of a layer depends on one row of its row operands only: so each block is the restriction of the whole-array
  layer to its rows, the twenty row ranges tile the arrays, and the three results are, index by index, the
  reference's — with no rearrangement of any sum, hence with no use of the finiteness of the inputs.

  The two kernel programs' frames are the generated frame certificates; the reference's frame is its generated
  run with the results dropped; the idealization rewrote nothing, so there is nothing to preserve.
-/
import proofs.«136946_j42150809043600_1_alg».proof.Defs
import proofs.«136946_j42150809043600_1_alg».proof.Proof.Gen.Kernel
import proofs.«136946_j42150809043600_1_alg».proof.Proof.Gen.Kernel.Skeleton
import proofs.«136946_j42150809043600_1_alg».proof.Proof.Gen.Kernel.Launch
import proofs.«136946_j42150809043600_1_alg».proof.Proof.Gen.Kernel.Points
import proofs.«136946_j42150809043600_1_alg».proof.Proof.Gen.Kernel.Frame
import proofs.«136946_j42150809043600_1_alg».proof.Proof.Gen.KernelIdeal
import proofs.«136946_j42150809043600_1_alg».proof.Proof.Gen.KernelIdeal.Skeleton
import proofs.«136946_j42150809043600_1_alg».proof.Proof.Gen.KernelIdeal.Launch
import proofs.«136946_j42150809043600_1_alg».proof.Proof.Gen.KernelIdeal.Points
import proofs.«136946_j42150809043600_1_alg».proof.Proof.Gen.KernelIdeal.Frame
import proofs.«136946_j42150809043600_1_alg».proof.Proof.Gen.ReferenceIdeal
import proofs.«136946_j42150809043600_1_alg».proof.Proof.Gen.ReferenceIdeal.Run
import proofs.«136946_j42150809043600_1_alg».proof.Proof.Gen.ReferenceIdeal.Read
import proofs.«136946_j42150809043600_1_alg».proof.Proof.Gen.Pre_finite_inputs
import proofs.«136946_j42150809043600_1_alg».proof.Proof.RunAll
import proofs.«136946_j42150809043600_1_alg».proof.Proof.Fold
import Idealize.ShloMosaic.Adequacy
import Idealize.ShloMosaic.Init

set_option maxRecDepth 16384

noncomputable section

namespace Cert.Proof

open Idealize.ShloMosaic Idealize.SL.Sem

/-- The idealized kernel program runs, and ends with its three results at the reference's three stages of its own
    launch arguments, the arguments unchanged: every unscoped buffer ends at the last boundary's contents, and those
    contents at the result buffers have been read back through the segments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v38)
          = Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_v23)
          = Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      ∧ r.2.mem ((c.tc : Thread Cert.KernelIdeal.nD Cert.KernelIdeal.τ).loc Cert.KernelIdeal.main_v37_0)
          = Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run (Cert.KernelIdeal.defs (F := Ideal)) _ _).mono (fun r h c =>
    ⟨(h c Cert.KernelIdeal.main_v38 (by decide)).trans (Cert.KernelIdeal.Whole.result0 m ρ c),
      (h c Cert.KernelIdeal.main_v23 (by decide)).trans (Cert.KernelIdeal.Whole.result1 m ρ c),
      (h c Cert.KernelIdeal.main_v37_0 (by decide)).trans (Cert.KernelIdeal.Whole.result2 m ρ c),
      (h c Cert.KernelIdeal.main_arg0 (by decide)).trans (Cert.KernelIdeal.Gen.W5_main_arg0 m ρ c),
      (h c Cert.KernelIdeal.main_arg1 (by decide)).trans (Cert.KernelIdeal.Gen.W5_main_arg1 m ρ c),
      (h c Cert.KernelIdeal.main_arg2 (by decide)).trans (Cert.KernelIdeal.Gen.W5_main_arg2 m ρ c),
      (h c Cert.KernelIdeal.main_arg3 (by decide)).trans (Cert.KernelIdeal.Gen.W5_main_arg3 m ρ c),
      (h c Cert.KernelIdeal.main_arg4 (by decide)).trans (Cert.KernelIdeal.Gen.W5_main_arg4 m ρ c),
      (h c Cert.KernelIdeal.main_arg5 (by decide)).trans (Cert.KernelIdeal.Gen.W5_main_arg5 m ρ c),
      (h c Cert.KernelIdeal.main_arg6 (by decide)).trans (Cert.KernelIdeal.Gen.W5_main_arg6 m ρ c),
      (h c Cert.KernelIdeal.main_arg7 (by decide)).trans (Cert.KernelIdeal.Gen.W5_main_arg7 m ρ c),
      (h c Cert.KernelIdeal.main_arg8 (by decide)).trans (Cert.KernelIdeal.Gen.W5_main_arg8 m ρ c),
      (h c Cert.KernelIdeal.main_arg9 (by decide)).trans (Cert.KernelIdeal.Gen.W5_main_arg9 m ρ c)⟩)
    (Cert.KernelIdeal.Whole.run_all (F := Ideal) m ρ)

theorem frame_k : Cert.frame_Kernel := fun m ρ _ => Cert.Kernel.Gen.frame m ρ

theorem frame_ki : Cert.frame_KernelIdeal := fun m ρ _ => Cert.KernelIdeal.Gen.frame m ρ

/-- The reference runs and keeps its arguments: its generated run, the three results dropped. -/
theorem frame_ri : Cert.frame_ReferenceIdeal := fun m ρ _ =>
  (θ_run (Cert.ReferenceIdeal.defs (F := Ideal)) _ _).mono (fun _ h c => (h c).2.2.2) (Cert.ReferenceIdeal.Value.run (F := Ideal) m ρ)

/-- From memories that agree on the arguments both programs end with the reference's three stages of those
    arguments: the kernel program by `kernel_run`, the reference by its generated run. -/
theorem algebraic : Cert.algebraic_KernelIdeal_ReferenceIdeal := by
  intro m ρ m' ρ' _ hagree
  refine ⟨fun c => Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v29 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    kernel_run m ρ, ?_⟩
  refine (θ_run (Cert.ReferenceIdeal.defs (F := Ideal)) _ _).mono (fun _ h c =>
    ⟨(h c).1.trans ?_, (h c).2.1.trans ?_, (h c).2.2.1.trans ?_, (h c).2.2.2⟩)
    (Cert.ReferenceIdeal.Value.run (F := Ideal) m' ρ')
  · obtain ⟨h0, h1, h2, h3, h4, h5, h6, h7, h8, h9⟩ := hagree c
    rw [Cert.ReferenceIdeal.Read.val_main_v59_eq, h0, h1, h2, h3, h4, h5, h6, h7, h8, h9]
  · obtain ⟨h0, h1, h2, h3, h4, -⟩ := hagree c
    refine (Cert.ReferenceIdeal.Read.val_main_v29_eq (F := Ideal) _ _ _ _ _).trans ?_
    rw [h0, h1, h2, h3, h4]
  · obtain ⟨h0, h1, h2, h3, h4, h5, h6, h7, -⟩ := hagree c
    rw [Cert.ReferenceIdeal.Read.val_main_v54_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
